-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S4x2048 : Shape := ⟨2, ![4, 2048]⟩
abbrev S1x512x2048 : Shape := ⟨3, ![1, 512, 2048]⟩
abbrev S8x2048 : Shape := ⟨2, ![8, 2048]⟩
abbrev S520x2048 : Shape := ⟨2, ![520, 2048]⟩
abbrev S512x2048 : Shape := ⟨2, ![512, 2048]⟩
abbrev S1x2048 : Shape := ⟨2, ![1, 2048]⟩
abbrev S2048 : Shape := ⟨1, ![2048]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x2048, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x512x2048, .f32⟩
  | .local _ .vmem, ⟨4, _⟩ => ⟨S1x512x2048, .f32⟩
  | .local _ .vmem, ⟨5, _⟩ => ⟨S8x2048, .f32⟩
  | .local _ .vmem, ⟨6, _⟩ => ⟨S520x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x4_S4x2048_1_0 : S2048x4.Transposes [1, 0] S4x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S520x2048_S8x2048_0_0 : ∀ a, (![0, 0] : Fin 2 → Nat) a + S8x2048.size a ≤ S520x2048.size a
  inb_S520x2048_S512x2048_8_0 : ∀ a, (![8, 0] : Fin 2 → Nat) a + S512x2048.size a ≤ S520x2048.size a
  h_S512x2048 : 0 < S512x2048.numel
  shapeCasts_S512x2048_S512x2048 : S512x2048.ShapeCasts S512x2048
  inb_S4x2048_S1x2048_3_0 : ∀ a, (![3, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  inb_S520x2048_S512x2048_5_0 : ∀ a, (![5, 0] : Fin 2 → Nat) a + S512x2048.size a ≤ S520x2048.size a
  inb_S4x2048_S1x2048_0_0 : ∀ a, (![0, 0] : Fin 2 → Nat) a + S1x2048.size a ≤ S4x2048.size a
  inb_S520x2048_S512x2048_6_0 : ∀ a, (![6, 0] : Fin 2 → Nat) a + S512x2048.size a ≤ S520x2048.size a
  inb_S4x2048_S1x2048_1_0 : ∀ a, (![1, 0] : Fin 2 → Nat) a + S1x2048.size a ≤ S4x2048.size a
  inb_S520x2048_S512x2048_7_0 : ∀ a, (![7, 0] : Fin 2 → Nat) a + S512x2048.size a ≤ S520x2048.size a
  inb_S4x2048_S1x2048_2_0 : ∀ a, (![2, 0] : Fin 2 → Nat) a + S1x2048.size a ≤ S4x2048.size a
  shapeCasts_S512x2048_S1x512x2048 : S512x2048.ShapeCasts S1x512x2048
  slices_S512x2048_o504_0_S8x2048 : S512x2048.Slices ![504, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x2048.size a
  hwx0_2 : ∀ i : grid0.Coords, EltTy.bits .f32 = 32 ∨ (Rect.block (s := S4x4096x2048) S1x512x2048.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S2048x1, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048x1, .f32⟩
  | .hbm, ⟨20, _⟩ => ⟨S2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S2048x1, .f32⟩
  | .hbm, ⟨27, _⟩ => ⟨S2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1
  bcast_S_S4x4096x2048 : S_.BroadcastsInDim S4x4096x2048 (![] : Fin 0 → Fin S4x4096x2048.rank)

variable [Facts₀]

class Facts : Prop extends Facts₀ where

variable [Facts]
-- ==== Proof.LibRowStack.lean ====
/-
  TWO ROW BLOCKS STORED INTO ONE RANK-TWO BUFFER, READ BACK SOME ROWS AT A TIME.

  A kernel may stage a [k + n, c] array in scratch by two stores — rows [0, k) from one value `lo`, rows [k, k + n) from
  another value `hi` — and then load `n'` consecutive rows of it from some row `o` (a shifted window over the
  concatenation: a halo of `k` rows kept in front of a tile of `n` rows). A frame lists what was stored as pieces,
  newest first, and states each such load as `View.readCov` of the pieces at the load's rectangle.

    stack lo hi                — the [k + n, c] array that has `lo`'s rows on top of `hi`'s;
    canon_two_row_blocks       — the canonical contents of the two pieces (the `hi` store the newer) are `stack lo hi`;
    readCov_two_row_blocks     — a load of `n'` rows from row `o` of those pieces is `RowLoads.rowsFrom n' (stack lo hi) o`;
    stack_apply_hi / _lo       — `stack lo hi` at row `i`: `hi` at row `i - k` when `k ≤ i`, `lo` at row `i` otherwise.
-/
import Idealize.ShloMosaic.Lib.Pipeline.RowLoads

noncomputable section

namespace Idealize.ShloMosaic.RowStack

open Idealize.ShloMosaic Idealize.ShloMosaic.ValueIdx Idealize.ShloMosaic.RowLoads

variable {α : Type} {k n c m : Nat}

/-- `lo`'s `k` rows on top of `hi`'s `n` rows, as an array over [m, c] with `m = k + n`. -/
def stack (lo : (⟨2, ![k, c]⟩ : Shape).Idx → α) (hi : (⟨2, ![n, c]⟩ : Shape).Idx → α) (hm : m = k + n) :
    (⟨2, ![m, c]⟩ : Shape).Idx → α :=
  fun i =>
    if h : k ≤ (i 0).val then hi (ix2 (⟨(i 0).val - k, by have : (i 0).val < m := (i 0).isLt; omega⟩ : Fin n) (i 1 : Fin c))
    else lo (ix2 (⟨(i 0).val, by omega⟩ : Fin k) (i 1 : Fin c))

/-- At a row from `k` on, the stacked array is `hi` at that row less `k`. -/
theorem stack_apply_hi (lo : (⟨2, ![k, c]⟩ : Shape).Idx → α) (hi : (⟨2, ![n, c]⟩ : Shape).Idx → α) (hm : m = k + n)
    (i : Fin m) (d : Fin c) (j : Fin n) (hj : i.val = k + j.val) : stack lo hi hm (ix2 i d) = hi (ix2 j d) := by
  unfold stack
  rw [dif_pos (by show k ≤ i.val; omega)]
  exact congrArg (fun t : Fin n => hi (ix2 t d)) (Fin.ext (by show i.val - k = j.val; omega))

/-- At a row before `k`, the stacked array is `lo` at that row. -/
theorem stack_apply_lo (lo : (⟨2, ![k, c]⟩ : Shape).Idx → α) (hi : (⟨2, ![n, c]⟩ : Shape).Idx → α) (hm : m = k + n)
    (i : Fin m) (d : Fin c) (j : Fin k) (hj : i.val = j.val) : stack lo hi hm (ix2 i d) = lo (ix2 j d) := by
  unfold stack
  rw [dif_neg (by show ¬k ≤ i.val; have := j.isLt; omega)]
  exact congrArg (fun t : Fin k => lo (ix2 t d)) (Fin.ext (by show i.val = j.val; exact hj))

end Idealize.ShloMosaic.RowStack

namespace Idealize.ShloMosaic.View

open Idealize.ShloMosaic.ValueIdx Idealize.ShloMosaic.RowLoads Idealize.ShloMosaic.RowStack

variable {k n c m : Nat} {Val : EltTy → Type} [∀ e, Nonempty (Val e)] {sig : RefSig} {κ : Kind} {sp : Space} {e : EltTy}

/-- Rows [k, k + n) stored from `hi` AFTER rows [0, k) stored from `lo`: the canonical contents are `lo` on top of `hi`. -/
theorem canon_two_row_blocks (lo : (⟨2, ![k, c]⟩ : Shape).Idx → Val e) (hi : (⟨2, ![n, c]⟩ : Shape).Idx → Val e) (hm : m = k + n)
    (inbHi : ∀ a, (![k, 0] : Fin 2 → Nat) a + (⟨2, ![n, c]⟩ : Shape).size a ≤ (⟨2, ![m, c]⟩ : Shape).size a)
    (inbLo : ∀ a, (![0, 0] : Fin 2 → Nat) a + (⟨2, ![k, c]⟩ : Shape).size a ≤ (⟨2, ![m, c]⟩ : Shape).size a) :
    canon [(⟨Rect.unit (s := (⟨2, ![m, c]⟩ : Shape)) ![k, 0] (⟨2, ![n, c]⟩ : Shape).size inbHi, hi⟩ : Piece Val (⟨2, ![m, c]⟩ : Shape) e),
        (⟨Rect.unit (s := (⟨2, ![m, c]⟩ : Shape)) ![0, 0] (⟨2, ![k, c]⟩ : Shape).size inbLo, lo⟩ : Piece Val (⟨2, ![m, c]⟩ : Shape) e)]
      = stack lo hi hm := by
  funext i
  have hi0 : (i 0).val < m := (i 0).isLt
  unfold stack
  by_cases h : k ≤ (i 0).val
  · rw [dif_pos h]
    have he : (Rect.unit (s := (⟨2, ![m, c]⟩ : Shape)) ![k, 0] (⟨2, ![n, c]⟩ : Shape).size inbHi).emb
        (ix2 (⟨(i 0).val - k, by omega⟩ : Fin n) (i 1 : Fin c)) = i := by
      funext a; apply Fin.ext
      fin_cases a
      · show k + 1 * ((i 0).val - k) = (i 0).val; omega
      · show 0 + 1 * (i 1).val = (i 1).val; omega
    exact (congrArg (canon _) he.symm).trans
      (canon_cons_emb (Rect.unit (s := (⟨2, ![m, c]⟩ : Shape)) ![k, 0] (⟨2, ![n, c]⟩ : Shape).size inbHi) hi _
        (ix2 (⟨(i 0).val - k, by omega⟩ : Fin n) (i 1 : Fin c)))
  · rw [dif_neg h]
    have hnot : i ∉ (Rect.unit (s := (⟨2, ![m, c]⟩ : Shape)) ![k, 0] (⟨2, ![n, c]⟩ : Shape).size inbHi).set := by
      intro hmem
      have hall := (Rect.mem_set_unit (s := (⟨2, ![m, c]⟩ : Shape)) (off := ![k, 0]) (size := (⟨2, ![n, c]⟩ : Shape).size) (inb := inbHi) (i := i)).mp hmem
      exact h (hall 0).1
    refine (canon_cons_of_not_mem _ _ hnot).trans ?_
    have he : (Rect.unit (s := (⟨2, ![m, c]⟩ : Shape)) ![0, 0] (⟨2, ![k, c]⟩ : Shape).size inbLo).emb
        (ix2 (⟨(i 0).val, by omega⟩ : Fin k) (i 1 : Fin c)) = i := by
      funext a; apply Fin.ext
      fin_cases a
      · show 0 + 1 * (i 0).val = (i 0).val; omega
      · show 0 + 1 * (i 1).val = (i 1).val; omega
    exact (congrArg (canon _) he.symm).trans
      (canon_cons_emb (Rect.unit (s := (⟨2, ![m, c]⟩ : Shape)) ![0, 0] (⟨2, ![k, c]⟩ : Shape).size inbLo) lo _
        (ix2 (⟨(i 0).val, by omega⟩ : Fin k) (i 1 : Fin c)))

/-- So a load of `n'` rows from row `o` of what the two stores left reads `rowsFrom n' (stack lo hi) o`. -/
theorem readCov_two_row_blocks {n' : Nat} (v : View sig κ sp (⟨2, ![m, c]⟩ : Shape) e)
    (lo : (⟨2, ![k, c]⟩ : Shape).Idx → Val e) (hi : (⟨2, ![n, c]⟩ : Shape).Idx → Val e) (hm : m = k + n)
    (inbHi : ∀ a, (![k, 0] : Fin 2 → Nat) a + (⟨2, ![n, c]⟩ : Shape).size a ≤ (⟨2, ![m, c]⟩ : Shape).size a)
    (inbLo : ∀ a, (![0, 0] : Fin 2 → Nat) a + (⟨2, ![k, c]⟩ : Shape).size a ≤ (⟨2, ![m, c]⟩ : Shape).size a)
    (o : Nat) (h : o + n' ≤ m)
    (inbL : ∀ a, (![o, 0] : Fin 2 → Nat) a + (⟨2, ![n', c]⟩ : Shape).size a ≤ (⟨2, ![m, c]⟩ : Shape).size a) :
    v.readCov [(⟨Rect.unit (s := (⟨2, ![m, c]⟩ : Shape)) ![k, 0] (⟨2, ![n, c]⟩ : Shape).size inbHi, hi⟩ : Piece Val (⟨2, ![m, c]⟩ : Shape) e),
        (⟨Rect.unit (s := (⟨2, ![m, c]⟩ : Shape)) ![0, 0] (⟨2, ![k, c]⟩ : Shape).size inbLo, lo⟩ : Piece Val (⟨2, ![m, c]⟩ : Shape) e)]
        (Rect.unit (s := (⟨2, ![m, c]⟩ : Shape)) ![o, 0] (⟨2, ![n', c]⟩ : Shape).size inbL).toLoadRect
      = rowsFrom n' (stack lo hi hm) o h := by
  rw [readCov_eq_canon', canon_two_row_blocks lo hi hm inbHi inbLo]
  funext j
  unfold rowsFrom
  refine congrArg (stack lo hi hm) ?_
  funext a; apply Fin.ext
  fin_cases a
  · show o + 1 * (j 0).val = o + (j 0).val; omega
  · show 0 + 1 * (j 1).val = (j 1).val; omega

end Idealize.ShloMosaic.View

end
-- ==== Proof.BodyPieces.lean ====
/-
  What one run of the body leaves behind, as values of what it was given.

  The body is handed a block of the sequence array (512 times of one sequence, `x0`), the four filter rows (`x1`,
  row j = tap j of every channel) and 8 carried rows (`cr`). It copies the carried rows and then the block into a
  520-row staging array, reads that array back three times, 512 rows from rows 5, 6 and 7, and from these three
  shifted copies, the block itself and the filter rows computes the output block. Afterwards it keeps the block's
  last 8 rows as the next carried rows.

    bodyOut x0 x1 cr   — the output block: the body's arithmetic over the block, the filter rows and the three
                         shifted copies, each copy `rowsFrom 512 (stack cr x0) o` for o = 5, 6, 7;
    lastRows x0        — rows 504 … 511 of the block.

  At the first block of a sequence the body first fills the carried rows with zeros (`zeroRows`); at every other
  block it finds in them what the block before left. Either way the carried rows end as `lastRows x0`, whatever they
  held. The four lemmas below read this off the pieces the two runs of the body found.
-/
import proofs.«104247_j12781822672943_2_alg».proof.Proof.Gen.KernelIdeal.Frame
import proofs.«104247_j12781822672943_2_alg».proof.Proof.LibRowStack
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.RowLoads Idealize.ShloMosaic.RowStack

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 520-row staging array: the 8 carried rows on top of the block's 512 rows. -/
abbrev staged (x0 : Vec F S1x512x2048 .f32) (cr : Vec F S8x2048 .f32) : Vec F S520x2048 .f32 :=
  stack (k0_pay5 cr) (k0_pay6 x0) (rfl : 520 = 8 + 512)

/-- Row `j` of the filter block, as the body loads it. -/
abbrev filterRow (x1 : Vec F S4x2048 .f32) (j : Nat) (inb : ∀ a, (![j, 0] : Fin 2 → Nat) a + S1x2048.size a ≤ S4x2048.size a) :
    Vec F S1x2048 .f32 :=
  View.ld x1 (Rect.unit (s := S4x2048) ![j, 0] S1x2048.size inb)

/-- THE OUTPUT BLOCK the body computes from the block `x0`, the filter rows `x1` and the carried rows `cr`. -/
def bodyOut (x0 : Vec F S1x512x2048 .f32) (x1 : Vec F S4x2048 .f32) (cr : Vec F S8x2048 .f32) : Vec F S1x512x2048 .f32 :=
  k0_pay1
    (k0_pay7 x0 (filterRow x1 3 inb_S4x2048_S1x2048_3_0)
      (rowsFrom 512 (staged x0 cr) 5 (by omega)) (filterRow x1 0 inb_S4x2048_S1x2048_0_0)
      (rowsFrom 512 (staged x0 cr) 6 (by omega)) (filterRow x1 1 inb_S4x2048_S1x2048_1_0))
    (rowsFrom 512 (staged x0 cr) 7 (by omega)) (filterRow x1 2 inb_S4x2048_S1x2048_2_0)

/-- The block's last 8 rows: what the body keeps for the next block. -/
abbrev lastRows (x0 : Vec F S1x512x2048 .f32) : Vec F S8x2048 .f32 := k0_pay2 (k0_pay4 x0)

/-- Eight rows of zeros: what the body fills the carried rows with at the first block of a sequence. -/
abbrev zeroRows : Vec F S8x2048 .f32 := k0_pay3

/-- AT A LATER BLOCK of a sequence the body leaves `bodyOut` of the block, the filter rows and the rows it found
    carried, -/
theorem out_B (c : Dev nD) (i : grid0.Coords) (a2 : Memref sig .tc .vmem S1x512x2048 .f32) (h2 : a2.IsWhole) (a3 : Memref sig .tc .vmem S4x2048 .f32) (h3 : a3.IsWhole) (a4 : Memref sig .tc .vmem S1x512x2048 .f32) (h4 : a4.IsWhole) (a5 : Memref sig .tc .vmem S8x2048 .f32) (h5 : a5.IsWhole) (a6 : Memref sig .tc .vmem S520x2048 .f32) (h6 : a6.IsWhole) (hc : ¬cond0_0 i) (x0 : Vec F S1x512x2048 .f32) (x1 : Vec F S4x2048 .f32) (xs0 : Vec F S8x2048 .f32) :
    out0_B_2 c i a2 h2 a3 h3 a4 h4 a5 h5 a6 h6 hc x0 x1 xs0 = bodyOut x0 x1 xs0 := by
  unfold out0_B_2
  rw [View.read_writes_eq_canon _ _ _ (cover0_B_2 c i a2 h2 a3 h3 a4 h4 a5 h5 a6 h6 hc x0 x1 xs0)]
  unfold kernelRun0_B
  dsimp only
  sl_unfold_words
  rw [View.canon_unit_zero hz3]
  simp only [View.readAt_eq_ld, h2.read_unread, h3.read_unread, h5.read_unread,
    View.ld_unit_zero (S := S1x512x2048) hz3, View.ld_unit_zero (S := S8x2048) hz2]
  rw [View.readCov_two_row_blocks (k := 8) (n := 512) (c := 2048) (m := 520) (n' := 512) (Val := Elt F) (e := .f32) a6.view (k0_pay5 xs0) (k0_pay6 x0) (rfl : 520 = 8 + 512) _ _ 5 (by omega) _,
    View.readCov_two_row_blocks (k := 8) (n := 512) (c := 2048) (m := 520) (n' := 512) (Val := Elt F) (e := .f32) a6.view (k0_pay5 xs0) (k0_pay6 x0) (rfl : 520 = 8 + 512) _ _ 6 (by omega) _,
    View.readCov_two_row_blocks (k := 8) (n := 512) (c := 2048) (m := 520) (n' := 512) (Val := Elt F) (e := .f32) a6.view (k0_pay5 xs0) (k0_pay6 x0) (rfl : 520 = 8 + 512) _ _ 7 (by omega) _]
  rfl

/-- and keeps the block's last 8 rows. -/
theorem carry_B (c : Dev nD) (i : grid0.Coords) (a2 : Memref sig .tc .vmem S1x512x2048 .f32) (h2 : a2.IsWhole) (a3 : Memref sig .tc .vmem S4x2048 .f32) (h3 : a3.IsWhole) (a4 : Memref sig .tc .vmem S1x512x2048 .f32) (h4 : a4.IsWhole) (a5 : Memref sig .tc .vmem S8x2048 .f32) (h5 : a5.IsWhole) (a6 : Memref sig .tc .vmem S520x2048 .f32) (h6 : a6.IsWhole) (hc : ¬cond0_0 i) (x0 : Vec F S1x512x2048 .f32) (x1 : Vec F S4x2048 .f32) (xs0 : Vec F S8x2048 .f32) :
    sout0_B_0 c i a2 h2 a3 h3 a4 h4 a5 h5 a6 h6 hc x0 x1 xs0 = lastRows x0 := by
  unfold sout0_B_0
  rw [View.read_writes_eq_canon _ _ _ (scover0_B_0 c i a2 h2 a3 h3 a4 h4 a5 h5 a6 h6 hc x0 x1 xs0)]
  unfold kernelRun0_B
  dsimp only
  sl_unfold_words
  rw [View.canon_unit_zero hz2]
  simp only [View.readAt_eq_ld, h2.read_unread, View.ld_unit_zero (S := S1x512x2048) hz3]

/-- AT THE FIRST BLOCK of a sequence the carried rows are zeros, -/
theorem out_A (c : Dev nD) (i : grid0.Coords) (a2 : Memref sig .tc .vmem S1x512x2048 .f32) (h2 : a2.IsWhole) (a3 : Memref sig .tc .vmem S4x2048 .f32) (h3 : a3.IsWhole) (a4 : Memref sig .tc .vmem S1x512x2048 .f32) (h4 : a4.IsWhole) (a5 : Memref sig .tc .vmem S8x2048 .f32) (h5 : a5.IsWhole) (a6 : Memref sig .tc .vmem S520x2048 .f32) (h6 : a6.IsWhole) (hc : cond0_0 i) (x0 : Vec F S1x512x2048 .f32) (x1 : Vec F S4x2048 .f32) :
    out0_A_2 c i a2 h2 a3 h3 a4 h4 a5 h5 a6 h6 hc x0 x1 = bodyOut x0 x1 zeroRows := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz3]
  simp only [View.readAt_eq_ld, h2.read_unread, h3.read_unread,
    View.ld_unit_zero (S := S1x512x2048) hz3, View.readCov_unit_zero (S := S8x2048) _ hz2]
  rw [View.readCov_two_row_blocks (k := 8) (n := 512) (c := 2048) (m := 520) (n' := 512) (Val := Elt F) (e := .f32) a6.view (k0_pay5 (k0_pay3 (F := F))) (k0_pay6 x0) (rfl : 520 = 8 + 512) _ _ 5 (by omega) _,
    View.readCov_two_row_blocks (k := 8) (n := 512) (c := 2048) (m := 520) (n' := 512) (Val := Elt F) (e := .f32) a6.view (k0_pay5 (k0_pay3 (F := F))) (k0_pay6 x0) (rfl : 520 = 8 + 512) _ _ 6 (by omega) _,
    View.readCov_two_row_blocks (k := 8) (n := 512) (c := 2048) (m := 520) (n' := 512) (Val := Elt F) (e := .f32) a6.view (k0_pay5 (k0_pay3 (F := F))) (k0_pay6 x0) (rfl : 520 = 8 + 512) _ _ 7 (by omega) _]
  rfl

/-- and the body keeps the block's last 8 rows again. -/
theorem carry_A (c : Dev nD) (i : grid0.Coords) (a2 : Memref sig .tc .vmem S1x512x2048 .f32) (h2 : a2.IsWhole) (a3 : Memref sig .tc .vmem S4x2048 .f32) (h3 : a3.IsWhole) (a4 : Memref sig .tc .vmem S1x512x2048 .f32) (h4 : a4.IsWhole) (a5 : Memref sig .tc .vmem S8x2048 .f32) (h5 : a5.IsWhole) (a6 : Memref sig .tc .vmem S520x2048 .f32) (h6 : a6.IsWhole) (hc : cond0_0 i) (x0 : Vec F S1x512x2048 .f32) (x1 : Vec F S4x2048 .f32) :
    sout0_A_0 c i a2 h2 a3 h3 a4 h4 a5 h5 a6 h6 hc x0 x1 = lastRows x0 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_cons_unit_zero (S := S8x2048) hz2]
  simp only [View.readAt_eq_ld, h2.read_unread, View.ld_unit_zero (S := S1x512x2048) hz3]

end Cert.KernelIdeal.Body

end
-- ==== Proof.ConvSpec.lean ====
/-
  A causal depthwise convolution with four taps followed by SiLU, as ONE function of the two argument arrays,
  index by index over the extended reals.

  The sequence array is x[b, t, d] (4 sequences, 4096 times, 2048 channels) and the filter w[d, j] (one filter of
  four taps per channel). At time t the result before SiLU is

      pre[b, t, d] = x[b, t-3, d]·w[d,0] + x[b, t-2, d]·w[d,1] + x[b, t-1, d]·w[d,2] + x[b, t, d]·w[d,3],

  where an entry before the sequence starts (a negative time) counts as zero, and the result is
  pre · logistic(pre) with logistic(z) = 1 / (1 + e^(-z)).

  The same function has a BLOCK-LOCAL form: cut each sequence into 8 blocks of 512 times; inside block l the three
  causal taps at row r are rows 5 + r, 6 + r and 7 + r of the 520-row array made of the 8 rows that precede the block
  (zeros before the first block) followed by the block's own 512 rows. The two forms differ only in the order in which
  the four products are added, and addition of extended reals is commutative and associative, so they agree
  (`blockPre_eq_conv`) with no assumption on the entries.
-/
import Idealize.ShloMosaic.PureOps.Ideal
import Idealize.ShloMosaic.Lib.ValueIdx

noncomputable section

namespace Cert.ConvSpec

open Idealize.ShloMosaic Idealize.ShloMosaic.ValueIdx

/-- The sequence array and the filter array, as functions into the extended reals. -/
abbrev Seq := (⟨3, ![4, 4096, 2048]⟩ : Shape).Idx → EReal
abbrev Filt := (⟨2, ![2048, 4]⟩ : Shape).Idx → EReal

/-- What tap `j` of the filter meets at time `t`: the sequence at time `t + j - 3`, zero before the sequence starts. -/
def tap (x : Seq) (b : Fin 4) (t : Fin 4096) (d : Fin 2048) (j : ℕ) (hj : j ≤ 3) : EReal :=
  if h : 3 ≤ t.val + j then x (ix3 b ⟨t.val + j - 3, by have := t.isLt; omega⟩ d) else 0

/-- The convolution at `(b, t, d)`: the four products added first tap to last. -/
def conv (x : Seq) (w : Filt) (b : Fin 4) (t : Fin 4096) (d : Fin 2048) : EReal :=
  tap x b t d 0 (by omega) * w (ix2 d 0) + tap x b t d 1 (by omega) * w (ix2 d 1)
    + tap x b t d 2 (by omega) * w (ix2 d 2) + tap x b t d 3 (by omega) * w (ix2 d 3)

/-- SiLU: `z · 1 / (1 + e^(-z))`. -/
def silu (z : EReal) : EReal := z * Ideal.logistic z

/-- THE RESULT ARRAY as one function of the argument arrays. -/
def G (x : Seq) (w : Filt) : (⟨3, ![4, 4096, 2048]⟩ : Shape).Idx → EReal :=
  fun i => silu (conv x w (i 0) (i 1) (i 2))

theorem G_apply (x : Seq) (w : Filt) (b : Fin 4) (t : Fin 4096) (d : Fin 2048) :
    G x w (ix3 b t d) = silu (conv x w b t d) := rfl

/-! ## The block-local form -/

/-- Row `k` of the 520-row array: 8 carried rows, then the 512 rows of the block. -/
def stackAt (carry : Fin 8 → Fin 2048 → EReal) (cur : Fin 512 → Fin 2048 → EReal) (k : ℕ) (hk : k < 520) (d : Fin 2048) : EReal :=
  if h : 8 ≤ k then cur ⟨k - 8, by omega⟩ d else carry ⟨k, by omega⟩ d

/-- The value before SiLU at row `r` of a block: the aligned tap from the block itself first, then the three causal
    taps from rows `5 + r`, `6 + r`, `7 + r` of the 520-row array; `wt j d` is tap `j` of channel `d`'s filter. -/
def blockPre (carry : Fin 8 → Fin 2048 → EReal) (cur : Fin 512 → Fin 2048 → EReal) (wt : Fin 4 → Fin 2048 → EReal)
    (r : Fin 512) (d : Fin 2048) : EReal :=
  cur r d * wt 3 d + stackAt carry cur (5 + r.val) (by have := r.isLt; omega) d * wt 0 d
    + stackAt carry cur (6 + r.val) (by have := r.isLt; omega) d * wt 1 d
    + stackAt carry cur (7 + r.val) (by have := r.isLt; omega) d * wt 2 d

/-- Block `l` of sequence `b`: its 512 rows, -/
def curOf (x : Seq) (b : Fin 4) (l : Fin 8) (r : Fin 512) (d : Fin 2048) : EReal :=
  x (ix3 b ⟨512 * l.val + r.val, by have := l.isLt; have := r.isLt; omega⟩ d)

/-- and the 8 rows before it: the last 8 rows of block `l - 1`, zeros before the first block. -/
def carryOf (x : Seq) (b : Fin 4) (l : Fin 8) (k : Fin 8) (d : Fin 2048) : EReal :=
  if h : l.val = 0 then 0 else x (ix3 b ⟨512 * l.val - 8 + k.val, by have := l.isLt; have := k.isLt; omega⟩ d)

/-- The aligned tap is tap 3 of the convolution. -/
theorem curOf_eq_tap (x : Seq) (b : Fin 4) (l : Fin 8) (r : Fin 512) (d : Fin 2048) (hT : 512 * l.val + r.val < 4096) :
    curOf x b l r d = tap x b ⟨512 * l.val + r.val, hT⟩ d 3 (le_refl 3) := by
  unfold tap curOf
  rw [dif_pos (by show 3 ≤ 512 * l.val + r.val + 3; omega)]
  exact congrArg (fun t : Fin 4096 => x (ix3 b t d))
    (Fin.ext (by show 512 * l.val + r.val = 512 * l.val + r.val + 3 - 3; omega))

/-- Row `5 + j + r` of the 520-row array of block `l` is what tap `j` meets at time `512·l + r`: in the block itself
    when `3 ≤ r + j`, among the 8 rows before it otherwise (zero when there is no block before). -/
theorem stackAt_eq_tap (x : Seq) (b : Fin 4) (l : Fin 8) (r : Fin 512) (d : Fin 2048) (o j : ℕ) (hj : j ≤ 2) (ho : o = 5 + j)
    (hk : o + r.val < 520) (hT : 512 * l.val + r.val < 4096) :
    stackAt (carryOf x b l) (curOf x b l) (o + r.val) hk d = tap x b ⟨512 * l.val + r.val, hT⟩ d j (by omega) := by
  subst ho
  have hl := l.isLt
  have hr := r.isLt
  unfold stackAt tap
  by_cases h8 : 8 ≤ 5 + j + r.val
  · rw [dif_pos h8, dif_pos (by show 3 ≤ 512 * l.val + r.val + j; omega)]
    exact congrArg (fun t : Fin 4096 => x (ix3 b t d))
      (Fin.ext (by show 512 * l.val + (5 + j + r.val - 8) = 512 * l.val + r.val + j - 3; omega))
  · rw [dif_neg h8]
    unfold carryOf
    by_cases h0 : l.val = 0
    · rw [dif_pos h0, dif_neg (by show ¬3 ≤ 512 * l.val + r.val + j; omega)]
    · rw [dif_neg h0, dif_pos (by show 3 ≤ 512 * l.val + r.val + j; omega)]
      exact congrArg (fun t : Fin 4096 => x (ix3 b t d))
        (Fin.ext (by show 512 * l.val - 8 + (5 + j + r.val) = 512 * l.val + r.val + j - 3; omega))

/-- Four extended reals added last-first-second-third are the same sum added in order. -/
theorem sum_order (a0 a1 a2 a3 : EReal) : a3 + a0 + a1 + a2 = a0 + a1 + a2 + a3 := by
  rw [add_comm a3 a0, add_assoc a0 a3 a1, add_comm a3 a1, ← add_assoc a0 a1 a3, add_assoc (a0 + a1) a3 a2,
    add_comm a3 a2, ← add_assoc]

/-- THE LAW THAT JOINS THE TWO FORMS: the block-local value at row `r` of block `l` of sequence `b` is the
    convolution at time `512·l + r`. -/
theorem blockPre_eq_conv (x : Seq) (w : Filt) (b : Fin 4) (l : Fin 8) (r : Fin 512) (d : Fin 2048)
    (hT : 512 * l.val + r.val < 4096) :
    blockPre (carryOf x b l) (curOf x b l) (fun j d => w (ix2 d j)) r d = conv x w b ⟨512 * l.val + r.val, hT⟩ d := by
  have hr := r.isLt
  unfold blockPre conv
  rw [curOf_eq_tap x b l r d hT, stackAt_eq_tap x b l r d 5 0 (by omega) rfl (by omega) hT,
    stackAt_eq_tap x b l r d 6 1 (by omega) rfl (by omega) hT, stackAt_eq_tap x b l r d 7 2 (by omega) rfl (by omega) hT]
  exact sum_order _ _ _ _

end Cert.ConvSpec

end
-- ==== Proof.BodyValue.lean ====
/-
  The body's output block, read at an index over the extended reals.

  At row r, channel d of the block the body computes z · logistic(z) with

      z = ((x0[r,d]·f3[d] + S[5+r, d]·f0[d]) + S[6+r, d]·f1[d]) + S[7+r, d]·f2[d],

  where f0 … f3 are the four filter rows and S is the 520-row staging array (the 8 carried rows, then the block's own
  512 rows). That is `Cert.ConvSpec.silu` of `Cert.ConvSpec.blockPre` of the carried rows, the block and the filter rows
  (`bodyOut_apply`). Every operation of the body is read at one index: a filter row repeated over the 512 rows reads
  the row (`rowRepeat_apply`), the casts that drop or add the block's leading axis of extent one keep the other two
  coordinates, a load of 512 rows from row o of the staging array reads its row o + r (`staged_rows_apply`), and the
  products, the sums and the logistic function act entry by entry.

  The rows the body keeps for the next block are rows 504 … 511 of the block (`lastRows_apply`), and the rows it starts
  a sequence with are zeros (`zeroRows_apply`).
-/
import proofs.«104247_j12781822672943_2_alg».proof.Proof.BodyPieces
import proofs.«104247_j12781822672943_2_alg».proof.Proof.ConvSpec
import Idealize.ShloMosaic.PureOps.Ideal.Laws
import Idealize.ShloMosaic.Lib.ValueIdx
import Idealize.ShloMosaic.Lib.ValueLayout

noncomputable section

open Idealize.ShloMosaic Idealize.ShloMosaic.TcCoe Idealize.ShloMosaic.ValueIdx
open Idealize.ShloMosaic.RowLoads Idealize.ShloMosaic.RowStack

namespace Cert.KernelIdeal.Body

open Cert.KernelIdeal Cert.KernelIdeal.Gen Cert.ConvSpec

/-! ## Layout operations of the body, at an index (any element type) -/

section layout

variable {F : FTy → Type} [FloatOps F]

/-- A [1, 2048] row cast to a vector, cast back, and repeated over 512 rows reads, at `(r, d)`, the row at `d`. -/
theorem rowRepeat_apply (v : Vec F S1x2048 .f32) (r : Fin 512) (d : Fin 2048) :
    broadcastTo S512x2048 (shapeCast S1x2048 (shapeCast S2048 v shapeCasts_S1x2048_S2048) shapeCasts_S2048_S1x2048)
      broadcasts_S1x2048_S512x2048 (ix2 r d) = v (ix2 (0 : Fin 1) d) := by
  rw [broadcastTo_1b_ab_apply, shapeCast_a_1a_apply, shapeCast_1a_a_apply]

/-- The block without its leading axis, at `(r, d)`: the block at `(0, r, d)`. -/
theorem pay4_apply (x0 : Vec F S1x512x2048 .f32) (r : Fin 512) (d : Fin 2048) :
    k0_pay4 x0 (ix2 r d) = x0 (ix3 (0 : Fin 1) r d) := by
  unfold k0_pay4
  exact shapeCast_1ab_ab_apply x0 shapeCasts_S1x512x2048_S512x2048 r d

/-- What is stored into rows 8 … 519 of the staging array is the block. -/
theorem pay6_apply (x0 : Vec F S1x512x2048 .f32) (r : Fin 512) (d : Fin 2048) :
    k0_pay6 x0 (ix2 r d) = x0 (ix3 (0 : Fin 1) r d) := by
  unfold k0_pay6
  rw [shapeCast_self]
  exact pay4_apply x0 r d

/-- What is stored into rows 0 … 7 of the staging array is the carried rows. -/
theorem pay5_apply (cr : Vec F S8x2048 .f32) (k : Fin 8) (d : Fin 2048) : k0_pay5 cr (ix2 k d) = cr (ix2 k d) := by
  unfold k0_pay5
  rw [shapeCast_self]

/-- Row `j` of the filter block, read at channel `d`. -/
theorem filterRow_apply (x1 : Vec F S4x2048 .f32) (j : Nat) (inb : ∀ a, (![j, 0] : Fin 2 → Nat) a + S1x2048.size a ≤ S4x2048.size a)
    (hj : j < 4) (d : Fin 2048) : filterRow x1 j inb (ix2 (0 : Fin 1) d) = x1 (ix2 (⟨j, hj⟩ : Fin 4) d) := by
  show x1 ((Rect.unit (s := S4x2048) ![j, 0] S1x2048.size inb).idx (ix2 (0 : Fin 1) d)) = _
  refine congrArg x1 (funext fun a => Fin.ext ?_)
  match a with
  | ⟨0, _⟩ => show j + 1 * 0 = j; omega
  | ⟨1, _⟩ => show 0 + 1 * d.val = d.val; omega

/-- The rows kept for the next block, at `(k, d)`: row `504 + k` of the block. -/
theorem lastRows_apply (x0 : Vec F S1x512x2048 .f32) (k : Fin 8) (d : Fin 2048) :
    lastRows x0 (ix2 k d) = x0 (ix3 (0 : Fin 1) (⟨504 + k.val, by have := k.isLt; omega⟩ : Fin 512) d) := by
  show k0_pay2 (k0_pay4 x0) (ix2 k d) = _
  unfold k0_pay2
  rw [shapeCast_self, slice2_axis0_apply 504 (k0_pay4 x0) slices_S512x2048_o504_0_S8x2048 k d
    (⟨504 + k.val, by have := k.isLt; omega⟩ : Fin 512) rfl]
  exact pay4_apply x0 _ d

end layout

/-! ## Over the extended reals -/

/-- The rows a sequence starts with are zeros. -/
theorem zeroRows_apply (k : Fin 8) (d : Fin 2048) : zeroRows (F := Ideal) (ix2 k d) = (0 : EReal) := by
  show k0_pay3 (F := Ideal) (ix2 k d) = 0
  unfold k0_pay3
  rw [shapeCast_self]
  exact Ideal.ofBits_zero_f32

/-- A load of 512 rows from row `o` of the staging array, at `(r, d)`: row `o + r` of the 8 carried rows followed by
    the block. -/
theorem staged_rows_apply (x0 : Vec Ideal S1x512x2048 .f32) (cr : Vec Ideal S8x2048 .f32) (o : Nat) (ho : o + 512 ≤ 520)
    (r : Fin 512) (d : Fin 2048) :
    rowsFrom 512 (staged x0 cr) o ho (ix2 r d)
      = stackAt (fun k d => cr (ix2 k d)) (fun r d => x0 (ix3 (0 : Fin 1) r d)) (o + r.val) (by have := r.isLt; omega) d := by
  have hr := r.isLt
  unfold rowsFrom stackAt
  by_cases h8 : 8 ≤ o + r.val
  · rw [dif_pos h8]
    refine (stack_apply_hi (k0_pay5 cr) (k0_pay6 x0) (rfl : 520 = 8 + 512) (⟨o + r.val, by omega⟩ : Fin 520) d
      (⟨o + r.val - 8, by omega⟩ : Fin 512) (by show o + r.val = 8 + (o + r.val - 8); omega)).trans ?_
    exact pay6_apply x0 _ _
  · rw [dif_neg h8]
    refine (stack_apply_lo (k0_pay5 cr) (k0_pay6 x0) (rfl : 520 = 8 + 512) (⟨o + r.val, by omega⟩ : Fin 520) d
      (⟨o + r.val, by omega⟩ : Fin 8) rfl).trans ?_
    exact pay5_apply cr _ _

/-- The sum of the first three products, at `(r, d)`. -/
theorem pay7_apply (x0 : Vec Ideal S1x512x2048 .f32) (v12 v18 v25 : Vec Ideal S1x2048 .f32) (v17 v24 : Vec Ideal S512x2048 .f32)
    (r : Fin 512) (d : Fin 2048) :
    k0_pay7 x0 v12 v17 v18 v24 v25 (ix2 r d)
      = x0 (ix3 (0 : Fin 1) r d) * v12 (ix2 (0 : Fin 1) d) + v17 (ix2 r d) * v18 (ix2 (0 : Fin 1) d)
        + v24 (ix2 r d) * v25 (ix2 (0 : Fin 1) d) := by
  rw [← rowRepeat_apply v12 r d, ← rowRepeat_apply v18 r d, ← rowRepeat_apply v25 r d, ← pay4_apply x0 r d]
  rfl

/-- The last product added and SiLU applied, with the block's leading axis put back, at `(u, r, d)`. -/
theorem pay1_apply (v30 : FVec Ideal S512x2048 .f32) (v31 : Vec Ideal S512x2048 .f32) (v32 : Vec Ideal S1x2048 .f32)
    (u : Fin 1) (r : Fin 512) (d : Fin 2048) :
    k0_pay1 v30 v31 v32 (ix3 u r d) = silu (v30 (ix2 r d) + v31 (ix2 r d) * v32 (ix2 (0 : Fin 1) d)) := by
  rw [← rowRepeat_apply v32 r d]
  unfold k0_pay1
  exact shapeCast_ab_1ab_apply _ shapeCasts_S512x2048_S1x512x2048 u r d

/-- THE OUTPUT BLOCK at `(u, r, d)`: SiLU of the block-local convolution. -/
theorem bodyOut_apply (x0 : Vec Ideal S1x512x2048 .f32) (x1 : Vec Ideal S4x2048 .f32) (cr : Vec Ideal S8x2048 .f32)
    (u : Fin 1) (r : Fin 512) (d : Fin 2048) :
    bodyOut x0 x1 cr (ix3 u r d)
      = silu (blockPre (fun k d => cr (ix2 k d)) (fun r d => x0 (ix3 (0 : Fin 1) r d)) (fun j d => x1 (ix2 j d)) r d) := by
  unfold bodyOut
  rw [pay1_apply, pay7_apply, staged_rows_apply x0 cr 5 (by omega) r d, staged_rows_apply x0 cr 6 (by omega) r d,
    staged_rows_apply x0 cr 7 (by omega) r d, filterRow_apply x1 3 _ (by omega) d, filterRow_apply x1 0 _ (by omega) d,
    filterRow_apply x1 1 _ (by omega) d, filterRow_apply x1 2 _ (by omega) d]
  rfl

end Cert.KernelIdeal.Body

end
-- ==== Proof.KernelValue.lean ====
/-
  The kernel's result array is the specification `Cert.ConvSpec.G` of its two argument arrays.

  The grid has 32 points; point t works on block l = t mod 8 (512 times) of sequence b = t div 8, in this order, so the
  8 blocks of a sequence are met first to last. What the windows hand the body at point t:
    · the sequence window: rows 512·l … 512·l + 511 of sequence b (`seqBlock_apply`);
    · the filter window: the whole transposed filter array, whose entry (j, d) is the filter array's (d, j)
      (`filtBlock_apply`: the transposition is the one host operation before the region).
  After EVERY point the carried rows are the last 8 rows of that point's block (`carry_eq`: in both cases of the body,
  no induction). So at a point with l ≠ 0 the body finds the 8 rows before its block, rows 512·l - 8 … 512·l - 1 of the
  same sequence (the point before is block l - 1 of the same sequence), and at l = 0 it starts from zeros: exactly
  `Cert.ConvSpec.carryOf`. By `bodyOut_apply` and the law `blockPre_eq_conv` the block written back at point t is block
  (b, l) of `G` (`flushed_eq`); the 32 blocks tile the result array (`cover`), so the array ends holding `G` (`final`).
-/
import proofs.«104247_j12781822672943_2_alg».proof.Proof.BodyValue
import proofs.«104247_j12781822672943_2_alg».proof.Proof.Gen.KernelIdeal.Value
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ConvValue

open Cert.KernelIdeal Cert.KernelIdeal.Gen Cert.KernelIdeal.Body Cert.ConvSpec

variable (m : (ℓ : Loc nD τ sig) → Buf (Elt Ideal) ℓ) (ρ : Dev nD → PrngReg)

/-- The two argument arrays as launched. -/
abbrev X (c : Dev nD) : S4x4096x2048.Idx → EReal := m ((c : Thread nD τ).loc main_arg0)
abbrev W (c : Dev nD) : S2048x4.Idx → EReal := m ((c : Thread nD τ).loc main_arg1)

theorem lt32 (t : Fin cfg0.N) : t.val < 32 := lt_of_lt_of_eq t.isLt (show cfg0.N = 32 from N_0)

/-- The sequence and the block grid point `t` works on, and the time of row `r` of that block. -/
abbrev seqOf (t : Fin cfg0.N) : Fin 4 := ⟨t.val / 8, by have := lt32 t; omega⟩
abbrev blkOf (t : Fin cfg0.N) : Fin 8 := ⟨t.val % 8, by omega⟩
abbrev timeOf (t : Fin cfg0.N) (r : Fin 512) : Fin 4096 := ⟨512 * (t.val % 8) + r.val, by have := r.isLt; omega⟩

/-- The printed index maps, decided over the 32 points: the sequence window and the result window sit at block
    (t div 8, t mod 8, 0), the filter window at block (0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = t.val % 8 ∧ win0_2.index t (2 : Fin 3) = 0 :=
  (by decide +kernel : ∀ t : Fin grid0.N, _)

/-! ## What the windows hand the body -/

/-- The sequence window's block at point `t`, at `(u, r, d)`: the sequence array at sequence `t div 8`, time
    `512·(t mod 8) + r`. -/
theorem seqBlock_apply (c : Dev nD) (t : Fin cfg0.N) (u : Fin 1) (r : Fin 512) (d : Fin 2048) :
    (iblk m c 0 t : Vec Ideal S1x512x2048 .f32) (ix3 u r d) = X m c (ix3 (seqOf t) (timeOf t r) d) := by
  obtain ⟨e0, e1, e2, -⟩ := idx_facts t
  have hu := u.isLt
  unfold iblk
  rw [View.read_apply]
  refine (congrFun (V_main_arg0 m c) _).trans ?_
  refine congrArg (m ((c : Thread nD τ).loc main_arg0)) (funext fun a => Fin.ext ?_)
  match a with
  | ⟨0, _⟩ => show win0_0.index t (0 : Fin 3) * 1 + 1 * u.val = t.val / 8; omega
  | ⟨1, _⟩ => show win0_0.index t (1 : Fin 3) * 512 + 1 * r.val = 512 * (t.val % 8) + r.val; omega
  | ⟨2, _⟩ => show win0_0.index t (2 : Fin 3) * 2048 + 1 * d.val = d.val; omega

/-- The array the filter window stages is the filter array transposed: the host operation before the region. -/
theorem filt_host (c : Dev nD) :
    (V m c main_v0 : S4x2048.Idx → EReal) = transpose S4x2048 [1, 0] (W m c) transposes_S2048x4_S4x2048_1_0 := by
  dsimp only [V, hostOps0]; after_results

/-- The filter window's block at any point, at `(j, d)`: the filter array at `(d, j)`. -/
theorem filtBlock_apply (c : Dev nD) (t : Fin cfg0.N) (j : Fin 4) (d : Fin 2048) :
    (iblk m c 1 t : Vec Ideal S4x2048 .f32) (ix2 j d) = W m c (ix2 d j) := by
  obtain ⟨-, -, -, e3, e4, -⟩ := idx_facts t
  unfold iblk
  rw [View.read_apply]
  refine (congrFun (filt_host m c) _).trans ?_
  have he : ((cfg0.win 1).blk t).view.emb (ix2 j d) = (ix2 j d : S4x2048.Idx) := by
    funext a; apply Fin.ext
    match a with
    | ⟨0, _⟩ => show win0_1.index t (0 : Fin 2) * 4 + 1 * j.val = j.val; omega
    | ⟨1, _⟩ => show win0_1.index t (1 : Fin 2) * 2048 + 1 * d.val = d.val; omega
  rw [he]
  exact transpose_ix2_apply (W m c) transposes_S2048x4_S4x2048_1_0 j d

/-! ## The carried rows after each point -/

/-- After EVERY point the carried rows are the last 8 rows of that point's block of the sequence. -/
theorem carry_eq (c : Dev nD) (n : ℕ) (h : n < cfg0.N) :
    (outsAt0 m c n h).2 = lastRows (iblk m c 0 ⟨n, h⟩) := by
  by_cases h0 : n % 8 = 0
  · rw [outsAt0_A m c ⟨n, h⟩ h0]
    dsimp only
    exact carry_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) ((hcond0_0 ⟨n, h⟩).mpr h0) (iblk m c 0 ⟨n, h⟩) (iblk m c 1 ⟨n, h⟩)
  · rw [outsAt0_B m c ⟨n, h⟩ h0]
    dsimp only
    exact carry_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) scM0_1 (Memref.isWhole_whole _) (fun hh => h0 ((hcond0_0 ⟨n, h⟩).mp hh)) (iblk m c 0 ⟨n, h⟩) (iblk m c 1 ⟨n, h⟩) _

/-! ## What each point writes back -/

/-- Row `r` of point `t`'s block of the result array is time `512·(t mod 8) + r` of sequence `t div 8`. -/
theorem outBlock_emb (t : Fin cfg0.N) (u : Fin 1) (r : Fin 512) (d : Fin 2048) :
    ((cfg0.win 2).blk t).view.emb (ix3 u r d) = (ix3 (seqOf t) (timeOf t r) d : S4x4096x2048.Idx) := by
  obtain ⟨-, -, -, -, -, e5, e6, e7⟩ := idx_facts t
  have hu := u.isLt
  funext a; apply Fin.ext
  match a with
  | ⟨0, _⟩ => show win0_2.index t (0 : Fin 3) * 1 + 1 * u.val = t.val / 8; omega
  | ⟨1, _⟩ => show win0_2.index t (1 : Fin 3) * 512 + 1 * r.val = 512 * (t.val % 8) + r.val; omega
  | ⟨2, _⟩ => show win0_2.index t (2 : Fin 3) * 2048 + 1 * d.val = d.val; omega

/-- The body's output block at point `t`, given carried rows that ARE the 8 rows before the block, is block `t` of the
    specification. -/
theorem block_eq (c : Dev nD) (t : Fin cfg0.N) (cr : Vec Ideal S8x2048 .f32)
    (hcr : ∀ (k : Fin 8) (d : Fin 2048), cr (ix2 k d) = carryOf (X m c) (seqOf t) (blkOf t) k d) :
    (cfg0.win 2).cut (grid0.coords t) (bodyOut (iblk m c 0 t) (iblk m c 1 t) cr)
      = ((cfg0.win 2).blk t).view.read (Elt Ideal) (G (X m c) (W m c)) := by
  funext j
  obtain ⟨u, r, d, rfl⟩ : ∃ (u : Fin 1) (r : Fin 512) (d : Fin 2048), j = ix3 u r d := ⟨j 0, j 1, j 2, eq_ix3 j⟩
  show bodyOut (iblk m c 0 t) (iblk m c 1 t) cr (ix3 u r d) = G (X m c) (W m c) (((cfg0.win 2).blk t).view.emb (ix3 u r d))
  rw [outBlock_emb t u r d, G_apply]
  refine (bodyOut_apply (iblk m c 0 t) (iblk m c 1 t) cr u r d).trans (congrArg silu ?_)
  have h1 : (fun (k : Fin 8) (d : Fin 2048) => cr (ix2 k d)) = carryOf (X m c) (seqOf t) (blkOf t) :=
    funext fun k => funext fun d => hcr k d
  have h2 : (fun (r : Fin 512) (d : Fin 2048) => (iblk m c 0 t : Vec Ideal S1x512x2048 .f32) (ix3 (0 : Fin 1) r d))
      = curOf (X m c) (seqOf t) (blkOf t) :=
    funext fun r => funext fun d => seqBlock_apply m c t 0 r d
  have h3 : (fun (j : Fin 4) (d : Fin 2048) => (iblk m c 1 t : Vec Ideal S4x2048 .f32) (ix2 j d))
      = fun (j : Fin 4) (d : Fin 2048) => W m c (ix2 d j) :=
    funext fun j => funext fun d => filtBlock_apply m c t j d
  rw [h1, h2, h3]
  exact blockPre_eq_conv (X m c) (W m c) (seqOf t) (blkOf t) r d _

/-- WHAT POINT `t` WRITES BACK is block `t` of the specification of the argument arrays. -/
theorem flushed_eq (c : Dev nD) (t : Fin cfg0.N) :
    (dats m 0 c).flushed 2 t = ((cfg0.win 2).blk t).view.read (Elt Ideal) (G (X m c) (W m c)) := by
  have hN := lt32 t
  by_cases h0 : t.val % 8 = 0
  · rw [Value.flushed2_A m c t h0,
      out_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)]
    refine block_eq m c t zeroRows fun k d => (zeroRows_apply k d).trans ?_
    unfold carryOf
    rw [dif_pos h0]
  · have hp : t.val - 1 < cfg0.N := Nat.lt_of_le_of_lt (Nat.sub_le _ _) t.isLt
    rw [Value.flushed2_B m c t h0,
      out_B (F := Ideal) c (grid0.coords t) (ms0_0 t) (hs0_0 t) (ms0_1 t) (hs0_1 t) (ms0_2 t) (hs0_2 t) scM0_0 (Memref.isWhole_whole _) scM0_1 (Memref.isWhole_whole _) (fun hh => h0 ((hcond0_0 t).mp hh)) (iblk m c 0 t) (iblk m c 1 t) _,
      carry_eq m c (t.val - 1) hp]
    refine block_eq m c t _ fun k d => ?_
    have hk := k.isLt
    refine (lastRows_apply (iblk m c 0 ⟨t.val - 1, hp⟩) k d).trans ?_
    refine (seqBlock_apply m c ⟨t.val - 1, hp⟩ 0 _ d).trans ?_
    unfold carryOf
    rw [dif_neg h0]
    refine congrArg (X m c) (funext fun a => Fin.ext ?_)
    match a with
    | ⟨0, _⟩ => show (t.val - 1) / 8 = t.val / 8; omega
    | ⟨1, _⟩ => show 512 * ((t.val - 1) % 8) + (504 + k.val) = 512 * (t.val % 8) - 8 + k.val; omega
    | ⟨2, _⟩ => rfl

/-! ## The array after the run -/

/-- An index of the result array is in point `t`'s block iff each coordinate is in the block's range on its axis. -/
theorem mem_blk (t : Fin cfg0.N) (i : S4x4096x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v1).slice (win0_2.rect t)).set ↔ _
  rw [View.set_slice_whole, Rect.mem_set_unit]
  exact Iff.rfl

/-- The 32 blocks tile the result array: index `(b, s, d)` is in the block of point `8·b + s div 512`. -/
theorem cover (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hN : cfg0.N = 32 := N_0
  let t : Fin cfg0.N := ⟨8 * (i 0).val + (i 1).val / 512, by omega⟩
  obtain ⟨-, -, -, -, -, e5, e6, e7⟩ := idx_facts t
  have ht : t.val = 8 * (i 0).val + (i 1).val / 512 := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE RESULT ARRAY after the run is the specification of the argument arrays. -/
theorem final (c : Dev nD) : (dats m 0 c).arrAt 2 cfg0.N = G (X m c) (W m c) :=
  (dats m 0 c).arrAt_eq_of_cover 2 (G (X m c) (W m c)) (fun t _ => flushed_eq m c t) (cover)

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v1) = G (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ConvValue

end
-- ==== Proof.RefValue.lean ====
/-
  The reference's result is the specification `Cert.ConvSpec.G` of its two arguments, index by index.

  The reference pads the sequence array with three zero rows in front of every sequence, takes the four windows of 4096
  rows that start at rows 0, 1, 2, 3 of the padded array, multiplies window j by column j of the filter array (one
  number per channel, repeated over sequences and times) and adds the four products first to last; then it applies
  z ↦ z · (1 / (1 + e^(-z))) with the host's negation, exponential and quotient.

  Row `o + t` of the padded array is row `o + t - 3` of the sequence when `3 ≤ o + t` and the padding value otherwise
  (`padded_at`); the padding value is the integer zero converted to a float, the extended real 0. Column j of the
  filter read at `(b, t, d)` is `w[d, j]` (`filt0` … `filt3`). Over the extended reals the host's
  `1 / (1 + e^(-z))` is the logistic function by definition, and the host's literal 1.0 is the extended real 1.
-/
import proofs.«104247_j12781822672943_2_alg».proof.Proof.Gen.ReferenceIdeal.Read
import proofs.«104247_j12781822672943_2_alg».proof.Proof.ConvSpec
import Idealize.ShloMosaic.PureOps.Ideal.Laws
import Idealize.ShloMosaic.Lib.IdealHost
import Idealize.ShloMosaic.Lib.ValueIdx

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.ConvSpec

/-- The padding value: the integer zero converted to a float is the extended real 0. -/
theorem pad_value (i : S_.Idx) : val_main_call0_v0 (F := Ideal) i = (0 : EReal) := by
  show (((0#32 : BitVec 32).toInt : ℝ) : EReal) = 0
  rw [show (0#32 : BitVec 32).toInt = 0 from by decide]
  simp

/-- THE PADDED ARRAY at row `o + t` of sequence `b`, channel `d`: what tap `o` meets at time `t`. -/
theorem padded_at (x : (⟨S4x4096x2048, .f32⟩ : BufTy).Contents (Elt Ideal)) (b : Fin 4) (t : Fin 4096) (d : Fin 2048)
    (o : ℕ) (ho : o ≤ 3) (k : S4x4099x2048.Idx) (hk0 : (k 0).val = b.val) (hk1 : (k 1).val = o + t.val) (hk2 : (k 2).val = d.val) :
    val_main_v0 (F := Ideal) x k = tap x b t d o ho := by
  have hb := b.isLt
  have ht := t.isLt
  have hd := d.isLt
  unfold val_main_v0 pad
  dsimp only
  split
  · rename_i hin
    have h1 : 3 ≤ (k 1).val := (hin 1).1
    unfold tap
    rw [dif_pos (by omega)]
    refine congrArg x (funext fun a => Fin.ext ?_)
    match a with
    | ⟨0, _⟩ => show ((k 0).val - 0) / (0 + 1) = b.val; omega
    | ⟨1, _⟩ => show ((k 1).val - 3) / (0 + 1) = t.val + o - 3; omega
    | ⟨2, _⟩ => show ((k 2).val - 0) / (0 + 1) = d.val; omega
  · rename_i hnin
    have h : ¬3 ≤ t.val + o := fun h => hnin fun a =>
      match a with
      | ⟨0, _⟩ => by
        show 0 ≤ (k 0).val ∧ ((k 0).val - 0) % (0 + 1) = 0 ∧ ((k 0).val - 0) / (0 + 1) < 4
        omega
      | ⟨1, _⟩ => by
        show 3 ≤ (k 1).val ∧ ((k 1).val - 3) % (0 + 1) = 0 ∧ ((k 1).val - 3) / (0 + 1) < 4096
        omega
      | ⟨2, _⟩ => by
        show 0 ≤ (k 2).val ∧ ((k 2).val - 0) % (0 + 1) = 0 ∧ ((k 2).val - 0) / (0 + 1) < 2048
        omega
    unfold tap
    rw [dif_neg h]
    exact pad_value _

/-- The four windows of the padded array, read at `(b, t, d)`: taps 0 … 3 at time `t`. -/
theorem win0 (x : (⟨S4x4096x2048, .f32⟩ : BufTy).Contents (Elt Ideal)) (b : Fin 4) (t : Fin 4096) (d : Fin 2048) :
    val_main_v1 (F := Ideal) x (ix3 b t d) = tap x b t d 0 (by omega) := by
  rw [val_main_v1_apply]
  exact padded_at x b t d 0 _ _ rfl (by show t.val = 0 + t.val; omega) rfl
theorem win1 (x : (⟨S4x4096x2048, .f32⟩ : BufTy).Contents (Elt Ideal)) (b : Fin 4) (t : Fin 4096) (d : Fin 2048) :
    val_main_v7 (F := Ideal) x (ix3 b t d) = tap x b t d 1 (by omega) := by
  rw [val_main_v7_apply]
  exact padded_at x b t d 1 _ _ rfl rfl rfl
theorem win2 (x : (⟨S4x4096x2048, .f32⟩ : BufTy).Contents (Elt Ideal)) (b : Fin 4) (t : Fin 4096) (d : Fin 2048) :
    val_main_v14 (F := Ideal) x (ix3 b t d) = tap x b t d 2 (by omega) := by
  rw [val_main_v14_apply]
  exact padded_at x b t d 2 _ _ rfl rfl rfl
theorem win3 (x : (⟨S4x4096x2048, .f32⟩ : BufTy).Contents (Elt Ideal)) (b : Fin 4) (t : Fin 4096) (d : Fin 2048) :
    val_main_v21 (F := Ideal) x (ix3 b t d) = tap x b t d 3 (by omega) := by
  rw [val_main_v21_apply]
  exact padded_at x b t d 3 _ _ rfl rfl rfl

/-- Column `j` of the filter array, repeated over sequences and times, read at `(b, t, d)`: `w[d, j]`. -/
theorem filt0 (w : (⟨S2048x4, .f32⟩ : BufTy).Contents (Elt Ideal)) (b : Fin 4) (t : Fin 4096) (d : Fin 2048) :
    val_main_v5 (F := Ideal) w (ix3 b t d) = w (ix2 d 0) := by
  rw [val_main_v5_apply, val_main_v4_apply, val_main_v3_apply, val_main_v2_apply]
  refine congrArg w (funext fun a => Fin.ext ?_)
  match a with
  | ⟨0, _⟩ => exact Nat.div_one _
  | ⟨1, _⟩ => rfl
theorem filt1 (w : (⟨S2048x4, .f32⟩ : BufTy).Contents (Elt Ideal)) (b : Fin 4) (t : Fin 4096) (d : Fin 2048) :
    val_main_v11 (F := Ideal) w (ix3 b t d) = w (ix2 d 1) := by
  rw [val_main_v11_apply, val_main_v10_apply, val_main_v9_apply, val_main_v8_apply]
  refine congrArg w (funext fun a => Fin.ext ?_)
  match a with
  | ⟨0, _⟩ => exact Nat.div_one _
  | ⟨1, _⟩ => rfl
theorem filt2 (w : (⟨S2048x4, .f32⟩ : BufTy).Contents (Elt Ideal)) (b : Fin 4) (t : Fin 4096) (d : Fin 2048) :
    val_main_v18 (F := Ideal) w (ix3 b t d) = w (ix2 d 2) := by
  rw [val_main_v18_apply, val_main_v17_apply, val_main_v16_apply, val_main_v15_apply]
  refine congrArg w (funext fun a => Fin.ext ?_)
  match a with
  | ⟨0, _⟩ => exact Nat.div_one _
  | ⟨1, _⟩ => rfl
theorem filt3 (w : (⟨S2048x4, .f32⟩ : BufTy).Contents (Elt Ideal)) (b : Fin 4) (t : Fin 4096) (d : Fin 2048) :
    val_main_v25 (F := Ideal) w (ix3 b t d) = w (ix2 d 3) := by
  rw [val_main_v25_apply, val_main_v24_apply, val_main_v23_apply, val_main_v22_apply]
  refine congrArg w (funext fun a => Fin.ext ?_)
  match a with
  | ⟨0, _⟩ => exact Nat.div_one _
  | ⟨1, _⟩ => rfl

/-- The sum of the four products is the convolution. -/
theorem pre_eq (x : (⟨S4x4096x2048, .f32⟩ : BufTy).Contents (Elt Ideal)) (w : (⟨S2048x4, .f32⟩ : BufTy).Contents (Elt Ideal))
    (b : Fin 4) (t : Fin 4096) (d : Fin 2048) :
    val_main_v27 (F := Ideal) x w (ix3 b t d) = conv x w b t d := by
  rw [val_main_v27_apply, val_main_v20_apply, val_main_v13_apply, val_main_v6_apply, val_main_v12_apply,
    val_main_v19_apply, val_main_v26_apply, win0, win1, win2, win3, filt0, filt1, filt2, filt3]
  rfl

/-- The host's literal 1.0, repeated over the array, read anywhere: the extended real 1. -/
theorem one_a (i : S4x4096x2048.Idx) : val_main_call1_v2 (F := Ideal) i = (1 : EReal) := by
  rw [val_main_call1_v2_apply, val_main_call1_cst_apply]
  exact Ideal.ofBits_one_f32
theorem one_b (i : S4x4096x2048.Idx) : val_main_call1_v4 (F := Ideal) i = (1 : EReal) := by
  rw [val_main_call1_v4_apply, val_main_call1_cst_0_apply]
  exact Ideal.ofBits_one_f32

/-- THE REFERENCE IS THE SPECIFICATION. -/
theorem result_eq (x : (⟨S4x4096x2048, .f32⟩ : BufTy).Contents (Elt Ideal)) (w : (⟨S2048x4, .f32⟩ : BufTy).Contents (Elt Ideal)) :
    val_main_v28 (F := Ideal) x w = G x w := by
  funext i
  obtain ⟨b, t, d, rfl⟩ : ∃ (b : Fin 4) (t : Fin 4096) (d : Fin 2048), i = ix3 b t d := ⟨i 0, i 1, i 2, eq_ix3 i⟩
  rw [val_main_v28_apply, val_main_call1_v5_apply, val_main_call1_v3_apply, val_main_call1_v1_apply,
    val_main_call1_v0_apply, one_a, one_b, pre_eq, G_apply]
  rfl

end Cert.ReferenceIdeal.RefValue

end
-- ==== Proof.lean ====
/-
  A causal depthwise convolution with four taps followed by SiLU: the kernel against its reference, over the
  extended reals.

  Both programs compute, at sequence b, time t and channel d,
      pre = x[b,t-3,d]·w[d,0] + x[b,t-2,d]·w[d,1] + x[b,t-1,d]·w[d,2] + x[b,t,d]·w[d,3]   (zero before the sequence starts)
  and return pre · 1 / (1 + e^(-pre))  (`Cert.ConvSpec.G`, Proof/ConvSpec.lean).

  The reference pads each sequence with three zero rows in front and adds the four shifted products first tap to last
  (Proof/RefValue.lean reads its operations at an index). The kernel walks each sequence in 8 blocks of 512 times and
  keeps the last 8 rows of each block for the next one, starting a sequence from zeros; in a block it adds the aligned
  tap first and then the three causal taps, which it reads out of the 8 kept rows followed by the block
  (Proof/BodyPieces.lean, Proof/BodyValue.lean, Proof/KernelValue.lean). The two differ in the order of a sum of four
  extended reals, and addition there is commutative and associative, so the results agree for ALL entries: the
  precondition that the inputs are finite is not used by the value claim. Over the extended reals the kernel's
  logistic operation is by definition the reference's 1 / (1 + e^(-z)).

  The kernel read over the extended reals is the kernel's own text, no operation replaced, so the conjunct relating
  the two readings is `True`; the three frames are the generated ones (the reference's is its generated run with the
  result dropped).
-/
import proofs.«104247_j12781822672943_2_alg».proof.Defs
import proofs.«104247_j12781822672943_2_alg».proof.Proof.Gen.Kernel
import proofs.«104247_j12781822672943_2_alg».proof.Proof.Gen.Kernel.Skeleton
import proofs.«104247_j12781822672943_2_alg».proof.Proof.Gen.Kernel.Launch
import proofs.«104247_j12781822672943_2_alg».proof.Proof.Gen.Kernel.Points
import proofs.«104247_j12781822672943_2_alg».proof.Proof.Gen.Kernel.Frame
import proofs.«104247_j12781822672943_2_alg».proof.Proof.Gen.KernelIdeal
import proofs.«104247_j12781822672943_2_alg».proof.Proof.Gen.KernelIdeal.Skeleton
import proofs.«104247_j12781822672943_2_alg».proof.Proof.Gen.KernelIdeal.Launch
import proofs.«104247_j12781822672943_2_alg».proof.Proof.Gen.KernelIdeal.Points
import proofs.«104247_j12781822672943_2_alg».proof.Proof.Gen.KernelIdeal.Frame
import proofs.«104247_j12781822672943_2_alg».proof.Proof.Gen.ReferenceIdeal
import proofs.«104247_j12781822672943_2_alg».proof.Proof.Gen.Pre_finite_inputs
import proofs.«104247_j12781822672943_2_alg».proof.Proof.Gen.KernelIdeal.Value
import proofs.«104247_j12781822672943_2_alg».proof.Proof.Gen.ReferenceIdeal.Run
import proofs.«104247_j12781822672943_2_alg».proof.Proof.Gen.ReferenceIdeal.Read
import proofs.«104247_j12781822672943_2_alg».proof.Proof.KernelValue
import proofs.«104247_j12781822672943_2_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel read over the extended reals is its own text: no operation was replaced, nothing to relate. -/
theorem preserves : Cert.preserves_Kernel_KernelIdeal := trivial

/-- Both runs end with the result array at `Cert.ConvSpec.G` of the argument arrays: the kernel's by
    `Cert.KernelIdeal.ConvValue.run`, the reference's by its generated run and `Cert.ReferenceIdeal.RefValue.result_eq`,
    from arguments that agree. -/
theorem algebraic : Cert.algebraic_KernelIdeal_ReferenceIdeal := by
  intro m ρ m' ρ' _ hagree
  refine ⟨fun c => Cert.ConvSpec.G (Cert.KernelIdeal.ConvValue.X m c) (Cert.KernelIdeal.ConvValue.W m c),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
